-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩
abbrev S8x2048x2048 : Shape := ⟨3, ![8, 2048, 2048]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S4096x2048 .f32) (main_arg1 : IVec S_ 32) (main_arg2 : FVec F S8x2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8x2048x2048 .f32 := Host.absf main_arg2
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_c_2 : IVec S_ 32 := constantI S_ 32 0#32
  let main_v9 : IVec S_ 1 := cmpi .sge main_arg1 main_c_2
  let main_v10 : IVec S_ 1 := andi main_v8 main_v9
  let main_c_3 : IVec S_ 32 := constantI S_ 32 8#32
  let main_v11 : IVec S_ 1 := cmpi .slt main_arg1 main_c_3
  let main_v12 : IVec S_ 1 := andi main_v10 main_v11
  main_v12
-- ==== Kernel.lean ====
abbrev S4096x2048 : Shape := ⟨2, ![4096, 2048]⟩
abbrev S_ : Shape := ⟨0, ![]⟩
abbrev S8x2048x2048 : Shape := ⟨3, ![8, 2048, 2048]⟩
abbrev S1 : Shape := ⟨1, ![1]⟩
abbrev S2048x2048 : Shape := ⟨2, ![2048, 2048]⟩
abbrev S1x256x2048 : Shape := ⟨3, ![1, 256, 2048]⟩
abbrev S2048x256 : Shape := ⟨2, ![2048, 256]⟩
abbrev S256x2048 : Shape := ⟨2, ![256, 2048]⟩

abbrev nBuf : Space → Nat
  | .hbm => 4
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S_, .i32⟩
  | .hbm, ⟨2, _⟩ => ⟨S8x2048x2048, .f32⟩
  | .hbm, ⟨3, _⟩ => ⟨S4096x2048, .f32⟩
  | .local _ .vmem, ⟨0, _⟩ => ⟨S2048x2048, .f32⟩
  | .local _ .vmem, ⟨1, _⟩ => ⟨S2048x2048, .f32⟩
  | .local _ .vmem, ⟨2, _⟩ => ⟨S1x256x2048, .f32⟩
  | .local _ .vmem, ⟨3, _⟩ => ⟨S1x256x2048, .f32⟩
  | .local _ .vmem, ⟨4, _⟩ => ⟨S2048x256, .f32⟩
  | .local _ .vmem, ⟨5, _⟩ => ⟨S2048x256, .f32⟩
  | .local _ .vmem, ⟨6, _⟩ => ⟨S2048x2048, .bf16⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_call0_v0.idx], fun | 0 => main_call0_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S_S1 : S_.ShapeCasts S1
  inb_S1_S1_0 : ∀ a, (![0] : Fin 1 → Nat) a + S1.size a ≤ S1.size a
  numel1_S1 : S1.numel = 1
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .f32 = 32 ∨ (Rect.block (s := S4096x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S1_S1_0 numel1_S1 pf i = cc0_transform_1 inb_S1_S1_0 numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x2048.size a
  hwx0_2 : ∀ i : grid0.Coords, EltTy.bits .f32 = 32 ∨ (Rect.block (s := S4096x2048) S2048x256.size (cc0_transform_2 i) (hinb0_2 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev spec0_0 : Pipeline.WinSpec sig grid0.rank :=
  Pipeline.WinSpec.ofSpec (Memref.whole main_arg0) S2048x2048.size reads0_0 false false 2 stage0_0 sem0_0 nbuf0_0 hstage0_0

abbrev spec0_1 : Pipeline.WinSpec sig grid0.rank :=
  Pipeline.WinSpec.ofSpec (Memref.whole main_arg2) S1x256x2048.size reads0_1 false false 2 stage0_1 sem0_1 nbuf0_1 hstage0_1

abbrev spec0_2 : Pipeline.WinSpec sig grid0.rank :=
  Pipeline.WinSpec.ofSpec (Memref.whole main_v0) S2048x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 inb_S1_S1_0 numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 inb_S1_S1_0 numel1_S1 pf i a + 1) * S1x256x2048.size a ≤ S8x2048x2048.size a), EltTy.bits .f32 = 32 ∨ (Rect.block (s := S8x2048x2048) S1x256x2048.size (cc0_transform_1 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x2048 : Shape := ⟨2, ![4096, 2048]⟩
abbrev S_ : Shape := ⟨0, ![]⟩
abbrev S8x2048x2048 : Shape := ⟨3, ![8, 2048, 2048]⟩
abbrev S1x2048x2048 : Shape := ⟨3, ![1, 2048, 2048]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .i32⟩
  | .hbm, ⟨2, _⟩ => ⟨S8x2048x2048, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x2048x2048, .f32⟩
  | .hbm, ⟨25, _⟩ => ⟨S2048x2048, .f32⟩
  | .hbm, ⟨26, _⟩ => ⟨S2048x2048, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_c_7 : Ref sig .tc := ⟨.hbm, 17, rfl⟩
abbrev main_v6 : Ref sig .tc := ⟨.hbm, 18, rfl⟩
abbrev main_c_8 : Ref sig .tc := ⟨.hbm, 19, rfl⟩
abbrev main_c_9 : Ref sig .tc := ⟨.hbm, 20, rfl⟩
abbrev main_v7 : Ref sig .tc := ⟨.hbm, 21, rfl⟩
abbrev main_c_10 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]

class Facts₀ : Prop where
  sliceFits_S8x2048x2048_S1x2048x2048 : S8x2048x2048.Slices (fun _ => 0) S1x2048x2048
  h_S_ : 0 < S_.numel
  shapeCasts_S1x2048x2048_S2048x2048 : S1x2048x2048.ShapeCasts S2048x2048
  transposes_S2048x2048_S2048x2048_1_0 : S2048x2048.Transposes [1, 0] S2048x2048
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.OkBits.lean ====
/-
  The pipeline's side condition on the prefetched table, from the precondition.

  The kernel's second input window picks its block of the stacked weights `w` (8 experts) by the word the prefetched
  table holds: block `(e, j, 0)` of shape 1 x 256 x 2048 at grid point `(i, j)`. That block lies inside the 8 x 2048 x 2048
  array exactly when `e < 8` (the output-row block `j < 8` always does, 8 * 256 = 2048). The table is the scalar integer
  argument reshaped to one element, so its one word IS the argument's word; the precondition says that word, read as a
  signed integer, is at least 0 and below 8, hence it is below 8 as a natural number.
-/
import proofs.«172542_g39453569581158_cont_8to1_b_1137_5_alg».proof.Defs
import proofs.«172542_g39453569581158_cont_8to1_b_1137_5_alg».proof.Proof.Gen.Kernel.Frame
import proofs.«172542_g39453569581158_cont_8to1_b_1137_5_alg».proof.Proof.Gen.Pre_finite_inputs
import Idealize.ShloMosaic.Lib.StableHlo.Run
import Idealize.ShloMosaic.Lib.ValueIdx
import Idealize.ShloMosaic.Lib.Affine

set_option maxRecDepth 16384

noncomputable section

namespace Cert.Kernel.OkOfPre

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The expert word: the one element of the scalar integer argument (on the program's one device). -/
def expertWord : BitVec 32 := m (((0 : Dev nD) : Thread nD τ).loc main_arg1) ValueIdx.ix0

/-- The prefetched table is the scalar argument reshaped to one element. -/
theorem tbl_eq : (tbl m 0 : S1.Idx → BitVec 32)
    = shapeCast S1 (m (((0 : Dev nD) : Thread nD τ).loc main_arg1)) shapeCasts_S_S1 := by
  unfold tbl
  show V m 0 main_call0_v0 = _
  dsimp only [V, hostOps0]
  after_results
  rfl

/-- So at its one index (at any index) the table holds the expert word. -/
theorem tbl_apply (x : S1.Idx) : tbl m 0 x = expertWord m := by
  rw [tbl_eq]
  unfold shapeCast expertWord
  exact congrArg _ (eq_ix0 _)

/-- A word in [0, 8) read signed is below 8 read unsigned. -/
theorem toNat_lt_eight (w : BitVec 32) (h0 : (0#32 : BitVec 32).toInt ≤ w.toInt) (h8 : w.toInt < (8#32 : BitVec 32).toInt) :
    w.toNat < 8 := by
  have e := BitVec.toInt_eq_toNat_cond w
  have hlt := w.isLt
  have z : (0#32 : BitVec 32).toInt = 0 := by decide
  have g : (8#32 : BitVec 32).toInt = 8 := by decide
  rw [z] at h0; rw [g] at h8
  omega

/-- THE PRECONDITION DECODED: the expert word is below 8. -/
theorem expert_lt (h : ∀ c : Dev nD, Cert.Pre_finite_inputs.fn (F := F)
      (m ((c.tc : Thread nD τ).loc main_arg0)) (m ((c.tc : Thread nD τ).loc main_arg1)) (m ((c.tc : Thread nD τ).loc main_arg2)) = fun _ => 1#1) :
    (expertWord m).toNat < 8 := by
  have e := congrFun (h 0) ValueIdx.ix0
  dsimp only [Cert.Pre_finite_inputs.fn] at e
  obtain ⟨e10, e11⟩ := IntOp.andi_eq_one.1 e
  obtain ⟨-, e9⟩ := IntOp.andi_eq_one.1 e10
  exact toNat_lt_eight _ (IntOp.cmpi_sge.1 e9) (IntOp.cmpi_slt.1 e11)

/-- The pipeline's side condition: at every grid point the weights' block, at the table's word, is inside the array. -/
theorem ok_of_lt (hw : (expertWord m).toNat < 8) : Ok m := by
  intro i
  obtain ⟨w, hw', e⟩ : ∃ w : BitVec 32, w.toNat < 8 ∧
      cc0_transform_1 inb_S1_S1_0 numel1_S1 (tbl m) i = ![w.toNat, (BitVec.ofNat 32 (i 1).val).toNat, 0] :=
    ⟨(tbl m).at 0 (Rect.unit (s := S1) ![0] S1.size inb_S1_S1_0) numel1_S1,
      lt_of_eq_of_lt (congrArg BitVec.toNat (tbl_apply m _)) hw, rfl⟩
  have hj : (i 1).val < 8 := (i 1).isLt
  have hj' : (BitVec.ofNat 32 (i 1).val).toNat = (i 1).val := by
    rw [BitVec.toNat_ofNat]; exact Nat.mod_eq_of_lt (by omega)
  refine ⟨fun a => ?_, Or.inl rfl⟩
  rw [e, hj']
  match a with
  | ⟨0, _⟩ => show (w.toNat + 1) * 1 ≤ 8; omega
  | ⟨1, _⟩ => show ((i 1).val + 1) * 256 ≤ 2048; omega
  | ⟨2, _⟩ => show (0 + 1) * 2048 ≤ 2048; omega

theorem ok_of_pre (h : ∀ c : Dev nD, Cert.Pre_finite_inputs.fn (F := F)
      (m ((c.tc : Thread nD τ).loc main_arg0)) (m ((c.tc : Thread nD τ).loc main_arg1)) (m ((c.tc : Thread nD τ).loc main_arg2)) = fun _ => 1#1) :
    Ok m := ok_of_lt m (expert_lt m h)

end Cert.Kernel.OkOfPre

end
-- ==== Proof.OkIdeal.lean ====
/-
  The pipeline's side condition on the prefetched table, from the precondition.

  The kernel's second input window picks its block of the stacked weights `w` (8 experts) by the word the prefetched
  table holds: block `(e, j, 0)` of shape 1 x 256 x 2048 at grid point `(i, j)`. That block lies inside the 8 x 2048 x 2048
  array exactly when `e < 8` (the output-row block `j < 8` always does, 8 * 256 = 2048). The table is the scalar integer
  argument reshaped to one element, so its one word IS the argument's word; the precondition says that word, read as a
  signed integer, is at least 0 and below 8, hence it is below 8 as a natural number.
-/
import proofs.«172542_g39453569581158_cont_8to1_b_1137_5_alg».proof.Defs
import proofs.«172542_g39453569581158_cont_8to1_b_1137_5_alg».proof.Proof.Gen.KernelIdeal.Frame
import proofs.«172542_g39453569581158_cont_8to1_b_1137_5_alg».proof.Proof.Gen.Pre_finite_inputs
import Idealize.ShloMosaic.Lib.StableHlo.Run
import Idealize.ShloMosaic.Lib.ValueIdx
import Idealize.ShloMosaic.Lib.Affine

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The expert word: the one element of the scalar integer argument (on the program's one device). -/
def expertWord : BitVec 32 := m (((0 : Dev nD) : Thread nD τ).loc main_arg1) ValueIdx.ix0

/-- The prefetched table is the scalar argument reshaped to one element. -/
theorem tbl_eq : (tbl m 0 : S1.Idx → BitVec 32)
    = shapeCast S1 (m (((0 : Dev nD) : Thread nD τ).loc main_arg1)) shapeCasts_S_S1 := by
  unfold tbl
  show V m 0 main_call0_v0 = _
  dsimp only [V, hostOps0]
  after_results
  rfl

/-- So at its one index (at any index) the table holds the expert word. -/
theorem tbl_apply (x : S1.Idx) : tbl m 0 x = expertWord m := by
  rw [tbl_eq]
  unfold shapeCast expertWord
  exact congrArg _ (eq_ix0 _)

/-- A word in [0, 8) read signed is below 8 read unsigned. -/
theorem toNat_lt_eight (w : BitVec 32) (h0 : (0#32 : BitVec 32).toInt ≤ w.toInt) (h8 : w.toInt < (8#32 : BitVec 32).toInt) :
    w.toNat < 8 := by
  have e := BitVec.toInt_eq_toNat_cond w
  have hlt := w.isLt
  have z : (0#32 : BitVec 32).toInt = 0 := by decide
  have g : (8#32 : BitVec 32).toInt = 8 := by decide
  rw [z] at h0; rw [g] at h8
  omega

/-- THE PRECONDITION DECODED: the expert word is below 8. -/
theorem expert_lt (h : ∀ c : Dev nD, Cert.Pre_finite_inputs.fn (F := F)
      (m ((c.tc : Thread nD τ).loc main_arg0)) (m ((c.tc : Thread nD τ).loc main_arg1)) (m ((c.tc : Thread nD τ).loc main_arg2)) = fun _ => 1#1) :
    (expertWord m).toNat < 8 := by
  have e := congrFun (h 0) ValueIdx.ix0
  dsimp only [Cert.Pre_finite_inputs.fn] at e
  obtain ⟨e10, e11⟩ := IntOp.andi_eq_one.1 e
  obtain ⟨-, e9⟩ := IntOp.andi_eq_one.1 e10
  exact toNat_lt_eight _ (IntOp.cmpi_sge.1 e9) (IntOp.cmpi_slt.1 e11)

/-- The pipeline's side condition: at every grid point the weights' block, at the table's word, is inside the array. -/
theorem ok_of_lt (hw : (expertWord m).toNat < 8) : Ok m := by
  intro i
  obtain ⟨w, hw', e⟩ : ∃ w : BitVec 32, w.toNat < 8 ∧
      cc0_transform_1 inb_S1_S1_0 numel1_S1 (tbl m) i = ![w.toNat, (BitVec.ofNat 32 (i 1).val).toNat, 0] :=
    ⟨(tbl m).at 0 (Rect.unit (s := S1) ![0] S1.size inb_S1_S1_0) numel1_S1,
      lt_of_eq_of_lt (congrArg BitVec.toNat (tbl_apply m _)) hw, rfl⟩
  have hj : (i 1).val < 8 := (i 1).isLt
  have hj' : (BitVec.ofNat 32 (i 1).val).toNat = (i 1).val := by
    rw [BitVec.toNat_ofNat]; exact Nat.mod_eq_of_lt (by omega)
  refine ⟨fun a => ?_, Or.inl rfl⟩
  rw [e, hj']
  match a with
  | ⟨0, _⟩ => show (w.toNat + 1) * 1 ≤ 8; omega
  | ⟨1, _⟩ => show ((i 1).val + 1) * 256 ≤ 2048; omega
  | ⟨2, _⟩ => show (0 + 1) * 2048 ≤ 2048; omega

theorem ok_of_pre (h : ∀ c : Dev nD, Cert.Pre_finite_inputs.fn (F := F)
      (m ((c.tc : Thread nD τ).loc main_arg0)) (m ((c.tc : Thread nD τ).loc main_arg1)) (m ((c.tc : Thread nD τ).loc main_arg2)) = fun _ => 1#1) :
    Ok m := ok_of_lt m (expert_lt m h)

end Cert.KernelIdeal.OkOfPre

end
-- ==== Proof.Pieces.lean ====
/-
  What one run of the kernel body leaves behind, as values.

  The body keeps a scratch copy of the activations' row block, cast to the matmul's input format, and stores it only at
  the first output-column block of each row block (the grid's second coordinate is 0); at every point it then multiplies
  the scratch by the transpose of the point's block of weights and stores the product as the output block. So:
    * at a point that refreshes the scratch, the scratch ends holding the cast of the point's activations block, and the
      output block is the product of THAT cast block with the weights block (the body reads the scratch back after
      storing it);
    * at any other point the scratch is left as the previous point left it, and the output block is the product of that
      carried scratch with the weights block.
  The cast and the product are the body's own arithmetic, kept folded here (`k0_pay1`, `k0_pay2`); each statement holds
  for any float values.
-/
import proofs.«172542_g39453569581158_cont_8to1_b_1137_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A refreshing point leaves the scratch at the cast of its activations block. -/
theorem scratch_refresh (c : Dev nD) (i : grid0.Coords) (a3 : Memref sig .tc .vmem S2048x2048 .f32) (h3 : a3.IsWhole)
    (a4 : Memref sig .tc .vmem S1x256x2048 .f32) (h4 : a4.IsWhole) (a5 : Memref sig .tc .vmem S2048x256 .f32) (h5 : a5.IsWhole)
    (a6 : Memref sig .tc .vmem S2048x2048 .bf16) (h6 : a6.IsWhole) (hc : cond0_0 i)
    (x0 : Vec F S2048x2048 .f32) (x1 : Vec F S1x256x2048 .f32) (xt0 : TbBuf0 (F := F) c tbM0_0) :
    sout0_A_0 c i a3 h3 a4 h4 a5 h5 a6 h6 hc x0 x1 xt0 = k0_pay1 x0 := by
  unfold sout0_A_0
  rw [View.read_writes_eq_canon _ _ _ (scover0_A_0 c i a3 h3 a4 h4 a5 h5 a6 h6 hc x0 x1 xt0)]
  unfold kernelRun0_A
  dsimp only
  sl_unfold_words
  rw [View.canon_unit_zero hz2]
  simp only [View.readAt_eq_ld, h3.read_unread, View.ld_unit_zero (S := S2048x2048) hz2]

/-- A refreshing point's output block: the product of the freshly cast activations block with the weights block. -/
theorem out_refresh (c : Dev nD) (i : grid0.Coords) (a3 : Memref sig .tc .vmem S2048x2048 .f32) (h3 : a3.IsWhole)
    (a4 : Memref sig .tc .vmem S1x256x2048 .f32) (h4 : a4.IsWhole) (a5 : Memref sig .tc .vmem S2048x256 .f32) (h5 : a5.IsWhole)
    (a6 : Memref sig .tc .vmem S2048x2048 .bf16) (h6 : a6.IsWhole) (hc : cond0_0 i)
    (x0 : Vec F S2048x2048 .f32) (x1 : Vec F S1x256x2048 .f32) (xt0 : TbBuf0 (F := F) c tbM0_0) :
    out0_A_2 c i a3 h3 a4 h4 a5 h5 a6 h6 hc x0 x1 xt0 = k0_pay2 x1 (k0_pay1 x0) := by
  unfold out0_A_2
  rw [View.read_writes_eq_canon _ _ _ (cover0_A_2 c i a3 h3 a4 h4 a5 h5 a6 h6 hc x0 x1 xt0)]
  unfold kernelRun0_A
  dsimp only
  sl_unfold_words
  rw [View.canon_unit_zero hz2, View.readCov_unit_zero (S := S2048x2048) _ hz2]
  simp only [View.readAt_eq_ld, h3.read_unread, h4.read_unread, View.ld_unit_zero (S := S2048x2048) hz2,
    View.ld_unit_zero (S := S1x256x2048) hz3]

/-- Any other point's output block: the product of the carried scratch with the weights block. -/
theorem out_carry (c : Dev nD) (i : grid0.Coords) (a3 : Memref sig .tc .vmem S2048x2048 .f32) (h3 : a3.IsWhole)
    (a4 : Memref sig .tc .vmem S1x256x2048 .f32) (h4 : a4.IsWhole) (a5 : Memref sig .tc .vmem S2048x256 .f32) (h5 : a5.IsWhole)
    (a6 : Memref sig .tc .vmem S2048x2048 .bf16) (h6 : a6.IsWhole) (hc : ¬cond0_0 i)
    (x0 : Vec F S2048x2048 .f32) (x1 : Vec F S1x256x2048 .f32) (xt0 : TbBuf0 (F := F) c tbM0_0) (xs0 : Vec F S2048x2048 .bf16) :
    out0_B_2 c i a3 h3 a4 h4 a5 h5 a6 h6 hc x0 x1 xt0 xs0 = k0_pay2 x1 xs0 := by
  unfold out0_B_2
  rw [View.read_writes_eq_canon _ _ _ (cover0_B_2 c i a3 h3 a4 h4 a5 h5 a6 h6 hc x0 x1 xt0 xs0)]
  unfold kernelRun0_B
  dsimp only
  rw [View.canon_unit_zero hz2]
  simp only [View.readAt_eq_ld, h4.read_unread, h6.read_unread, View.ld_unit_zero (S := S1x256x2048) hz3,
    View.ld_unit_zero (S := S2048x2048) hz2]

end Cert.KernelIdeal.Pieces

end
-- ==== Proof.Payload.lean ====
/-
  The body's arithmetic read at an index, on the extended reals.

  At the ideal values a change of float format is the identity, so the scratch copy of an activations block IS that
  block; and a matrix product accumulated into zero is, entry by entry, the plain sum over the contracted axis of the
  products of the operands' entries. The body contracts the scratch's feature axis against the weights block's feature
  axis (the block holds 256 output rows of 2048 features each, under a leading axis of extent one for the expert), so
  entry `(r, q)` of the product is the sum over the feature `k` of `scratch[r, k] · block[0, q, k]`.
-/
import proofs.«172542_g39453569581158_cont_8to1_b_1137_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The product's dimension numbers: both operands contract their axis 1, the output's rows are the left operand's
    rows and its columns the right operand's rows. -/
abbrev dims : DotDims S2048x2048 S256x2048 S2048x256 := dot_S2048x2048_S256x2048_S2048x256_1_1_0_0_n_n

theorem lhs_row (i : S2048x256.Idx) (q : dims.contr.Idx) : (dims.lhsIdx i q 0).val = (i 0).val := by
  unfold DotDims.lhsIdx
  rw [dif_neg (show ¬(0 : Fin S2048x2048.rank) ∈ dims.lhsBatch by decide), dif_pos (show (0 : Fin S2048x2048.rank) ∈ dims.lhsNonContracting by decide)]
  rfl
theorem lhs_feature (i : S2048x256.Idx) (q : dims.contr.Idx) : (dims.lhsIdx i q 1).val = (q ⟨0, by decide⟩).val :=
  dims.lhsIdx_val_of_single rfl i q
theorem rhs_row (i : S2048x256.Idx) (q : dims.contr.Idx) : (dims.rhsIdx i q 0).val = (i 1).val := by
  unfold DotDims.rhsIdx
  rw [dif_neg (show ¬(0 : Fin S256x2048.rank) ∈ dims.rhsBatch by decide), dif_pos (show (0 : Fin S256x2048.rank) ∈ dims.rhsNonContracting by decide)]
  rfl
theorem rhs_feature (i : S2048x256.Idx) (q : dims.contr.Idx) : (dims.rhsIdx i q 1).val = (q ⟨0, by decide⟩).val :=
  dims.rhsIdx_val_of_single rfl i q

/-- The cast to the matmul's input format keeps every entry: the scratch copy is the block itself. -/
theorem cast_eq (x0 : Vec Ideal S2048x2048 .f32) : k0_pay1 (F := Ideal) x0 = x0 := by
  unfold k0_pay1
  exact (shapeCast_self _ _).trans rfl

/-- Entry `(r, q)` of the body's product: the scratch's row `r` against the weights block's output row `q`, summed
    over the 2048 features. -/
theorem product_apply (x1 : Vec Ideal S1x256x2048 .f32) (s : Vec Ideal S2048x2048 .bf16) (r : Fin 2048) (q : Fin 256) :
    k0_pay2 (F := Ideal) x1 s (ix2 r q) = ∑ k : Fin 2048, s (ix2 r k) * x1 (ix3 (0 : Fin 1) q k) := by
  unfold k0_pay2
  refine (Ideal.matmul_constant_zero_apply dims none s _ (ix2 r q)).trans ?_
  rw [← Equiv.sum_comp (contrEquiv1 dims 2048 rfl rfl).symm]
  refine Finset.sum_congr rfl fun k _ => ?_
  have hk := contrEquiv1_symm_val dims 2048 rfl rfl k
  have el : dims.lhsIdx (ix2 r q) ((contrEquiv1 dims 2048 rfl rfl).symm k) = ix2 r k := funext fun a => Fin.ext (by
    match a with
    | ⟨0, _⟩ => exact lhs_row _ _
    | ⟨1, _⟩ => exact (lhs_feature _ _).trans hk)
  have er : dims.rhsIdx (ix2 r q) ((contrEquiv1 dims 2048 rfl rfl).symm k) = ix2 q k := funext fun a => Fin.ext (by
    match a with
    | ⟨0, _⟩ => exact rhs_row _ _
    | ⟨1, _⟩ => exact (rhs_feature _ _).trans hk)
  rw [el, er, truncf_apply, shapeCast_1ab_ab_apply]

end Cert.KernelIdeal.Payload

end
-- ==== Proof.Spec.lean ====
/-
  The function both programs compute, stated once over the extended reals and over literal shapes: the activations
  `x` (4096 rows of 2048 features) multiplied by the transpose of ONE expert's weight matrix, the expert `e` chosen
  among the 8 stacked in `w` (each 2048 outputs by 2048 features):

      out[r, n] = Σ_k x[r, k] · w[e, n, k].

  Each entry is one sum over the feature axis, so two programs that both produce, at every entry, the sum over
  `k` of those same products agree — whatever their tiling of the rows and of the outputs, and whatever the order in
  which the sum is taken (a finite sum over an index type has no order). Nothing here needs an entry to be finite.
-/
import Idealize.ShloMosaic.PureOps.Ideal
import Idealize.ShloMosaic.Lib.ValueIdx

noncomputable section

open scoped BigOperators

namespace Cert.ExpertMatmul

open Idealize.ShloMosaic Idealize.ShloMosaic.ValueIdx

/-- One entry of the product: row `r` of the activations against output row `n` of expert `e`'s weights, summed
    over the 2048 features. -/
def entry (x : FVec Ideal ⟨2, ![4096, 2048]⟩ .f32) (w : FVec Ideal ⟨3, ![8, 2048, 2048]⟩ .f32) (e : Fin 8)
    (r : Fin 4096) (n : Fin 2048) : EReal :=
  ∑ k : Fin 2048, x (ix2 r k) * w (ix3 e n k)

/-- The whole product as an array: entry `(r, n)` at index `(r, n)`. -/
def product (x : FVec Ideal ⟨2, ![4096, 2048]⟩ .f32) (w : FVec Ideal ⟨3, ![8, 2048, 2048]⟩ .f32) (e : Fin 8) :
    FVec Ideal ⟨2, ![4096, 2048]⟩ .f32 :=
  fun i => entry x w e ⟨(i 0).val, idx2_lt0 i⟩ ⟨(i 1).val, idx2_lt1 i⟩

/-- The array at an index given by its coordinates is the entry at those coordinates. -/
theorem product_apply (x : FVec Ideal ⟨2, ![4096, 2048]⟩ .f32) (w : FVec Ideal ⟨3, ![8, 2048, 2048]⟩ .f32) (e : Fin 8)
    (r : Fin 4096) (n : Fin 2048) : product x w e (ix2 r n) = entry x w e r n := rfl

end Cert.ExpertMatmul

end
-- ==== Proof.BlockEntry.lean ====
/-
  One entry of one output block is one entry of the product.

  Take any activations block whose row `r` is row `R` of the activations, and any weights block whose output row `q`
  (under the leading unit axis) is output row `N` of expert `e`. The body's product of the cast of the first with the
  second has, at `(r, q)`, the sum over the features of `x[R, k] · w[e, N, k]`: the specification's entry `(R, N)`.
  The cast is the identity on the extended reals and the sum is the same sum term by term, so no law beyond
  rewriting the summands is used, and no entry has to be finite.
-/
import proofs.«172542_g39453569581158_cont_8to1_b_1137_5_alg».proof.Proof.Payload
import proofs.«172542_g39453569581158_cont_8to1_b_1137_5_alg».proof.Proof.Spec

noncomputable section

open scoped BigOperators

namespace Cert.KernelIdeal.Payload

open Cert.KernelIdeal Cert.KernelIdeal.Gen
open Idealize.ShloMosaic Idealize.ShloMosaic.ValueIdx Cert.ExpertMatmul

theorem block_entry (X : FVec Ideal ⟨2, ![4096, 2048]⟩ .f32) (W : FVec Ideal ⟨3, ![8, 2048, 2048]⟩ .f32) (e : Fin 8)
    (R : Fin 4096) (N : Fin 2048) (x0 : Vec Ideal S2048x2048 .f32) (x1 : Vec Ideal S1x256x2048 .f32)
    (r : Fin 2048) (q : Fin 256) (hx0 : ∀ k : Fin 2048, x0 (ix2 r k) = X (ix2 R k))
    (hx1 : ∀ k : Fin 2048, x1 (ix3 (0 : Fin 1) q k) = W (ix3 e N k)) :
    k0_pay2 (F := Ideal) x1 (k0_pay1 (F := Ideal) x0) (ix2 r q) = entry X W e R N := by
  rw [cast_eq, product_apply]
  unfold entry
  exact Finset.sum_congr rfl fun k _ => by rw [hx0 k, hx1 k]

end Cert.KernelIdeal.Payload

end
-- ==== Proof.KernelValue.lean ====
/-
  What the idealized kernel's result array ends holding: the product of the specification.

  The grid has 16 points, the row blocks outermost: point `t` works on row block `t / 8` of the activations (2048 rows,
  all 2048 features) and on column block `t % 8` of the result (256 output rows of the expert's weights). Three things are
  shown here.
    * Where a block sits. Entry `(r, k)` of the activations block at `t` is the activations' entry at row
      `(t / 8) · 2048 + r`; entry `(0, q, k)` of the weights block at `t` is the stacked weights' entry at expert `e`,
      output row `(t % 8) · 256 + q`, where `e` is the word the one-element table holds (the expert index itself);
      entry `(r, q)` of the output block at `t` is the result's entry at that row and that output row. Each index map
      is decided once over the 16 points; the table's word stays a variable throughout.
    * The invariant over the points, by induction on the point: after point `n` the scratch holds the cast of point
      `n`'s OWN activations block — at the first point of a row block because the body has just stored it, at the other
      seven because the scratch is carried and those points read the same block — and the output block is the product of
      that cast with point `n`'s weights block. This part holds for any float values.
    * At the ideal values an entry of that product is the specification's entry, so what point `t` writes back is block
      `t` of the specification's array; the 2 x 8 blocks tile the 4096 x 2048 result (entry `(R, N)` lies in the block of
      point `(R / 2048) · 8 + N / 256`), hence the result array ends holding the whole array of the specification.
-/
import proofs.«172542_g39453569581158_cont_8to1_b_1137_5_alg».proof.Proof.Gen.KernelIdeal.Frame
import proofs.«172542_g39453569581158_cont_8to1_b_1137_5_alg».proof.Proof.OkIdeal
import proofs.«172542_g39453569581158_cont_8to1_b_1137_5_alg».proof.Proof.Pieces
import proofs.«172542_g39453569581158_cont_8to1_b_1137_5_alg».proof.Proof.Payload
import proofs.«172542_g39453569581158_cont_8to1_b_1137_5_alg».proof.Proof.BlockEntry
import proofs.«172542_g39453569581158_cont_8to1_b_1137_5_alg».proof.Proof.Spec
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.OkOfPre Cert.KernelIdeal.Pieces Cert.KernelIdeal.Payload
open Idealize.ShloMosaic.ValueIdx Cert.ExpertMatmul

variable {F : FTy → Type} [FloatOps F]

/-- The index maps as the pipeline holds them, at any admissible contents of the table. -/
theorem win0_index (a : (pcfg0 (F := F)).Adm) (t : Fin (cfg0 a).N) : ((cfg0 a).win 0).index t = cc0_transform_0 (grid0.coords t) := rfl
theorem win1_index (a : (pcfg0 (F := F)).Adm) (t : Fin (cfg0 a).N) :
    ((cfg0 a).win 1).index t = cc0_transform_1 inb_S1_S1_0 numel1_S1 a.1 (grid0.coords t) := rfl
theorem win2_index (a : (pcfg0 (F := F)).Adm) (t : Fin (cfg0 a).N) : ((cfg0 a).win 2).index t = cc0_transform_2 (grid0.coords t) := rfl

/-- The grid runs the row blocks outermost: point `t` is row block `t / 8`, column block `t % 8`. -/
theorem idx_facts : ∀ t : Fin grid0.N, cc0_transform_0 (grid0.coords t) 0 = t.val / 8 ∧ cc0_transform_0 (grid0.coords t) 1 = 0
    ∧ cc0_transform_2 (grid0.coords t) 0 = t.val / 8 ∧ cc0_transform_2 (grid0.coords t) 1 = t.val % 8
    ∧ (grid0.coords t 1).val = t.val % 8 :=
  (by decide +kernel : ∀ t : Fin grid0.N, _)

/-- Where window 0's block at point `t` sits in the activations: rows `(t / 8) · 2048 …`, every feature. -/
theorem blk0_emb (a : (pcfg0 (F := F)).Adm) (t : Fin (cfg0 a).N) (r k : Fin 2048) (hr : t.val / 8 * 2048 + r.val < 4096) :
    (((cfg0 a).win 0).blk t).view.emb (ix2 r k) = ix2 ⟨t.val / 8 * 2048 + r.val, hr⟩ k := by
  obtain ⟨e0, e1, -⟩ := idx_facts t
  funext d; apply Fin.ext
  match d with
  | ⟨0, _⟩ =>
    show ((cfg0 a).win 0).index t (0 : Fin 2) * 2048 + 1 * r.val = t.val / 8 * 2048 + r.val
    rw [win0_index, e0]; omega
  | ⟨1, _⟩ =>
    show ((cfg0 a).win 0).index t (1 : Fin 2) * 2048 + 1 * k.val = k.val
    rw [win0_index, e1]; omega

/-- Where the output's block at point `t` sits in the result: rows `(t / 8) · 2048 …`, columns `(t % 8) · 256 …`. -/
theorem blk2_emb (a : (pcfg0 (F := F)).Adm) (t : Fin (cfg0 a).N) (r : Fin 2048) (q : Fin 256)
    (hr : t.val / 8 * 2048 + r.val < 4096) (hq : t.val % 8 * 256 + q.val < 2048) :
    (((cfg0 a).win 2).blk t).view.emb (ix2 r q) = ix2 ⟨t.val / 8 * 2048 + r.val, hr⟩ ⟨t.val % 8 * 256 + q.val, hq⟩ := by
  obtain ⟨-, -, e2, e3, -⟩ := idx_facts t
  funext d; apply Fin.ext
  match d with
  | ⟨0, _⟩ =>
    show ((cfg0 a).win 2).index t (0 : Fin 2) * 2048 + 1 * r.val = t.val / 8 * 2048 + r.val
    rw [win2_index, e2]; omega
  | ⟨1, _⟩ =>
    show ((cfg0 a).win 2).index t (1 : Fin 2) * 256 + 1 * q.val = t.val % 8 * 256 + q.val
    rw [win2_index, e3]; omega

/-- Where the weights' block at point `t` sits in the stacked weights, at table word `w`: expert `w`, output rows
    `(t % 8) · 256 …`, every feature. -/
theorem blk1_emb (a : (pcfg0 (F := F)).Adm) (t : Fin (cfg0 a).N) (e : Fin 8)
    (he : (a.1.at 0 (Rect.unit (s := S1) ![0] S1.size inb_S1_S1_0) numel1_S1).toNat = e.val)
    (q : Fin 256) (k : Fin 2048) (hq : t.val % 8 * 256 + q.val < 2048) :
    (((cfg0 a).win 1).blk t).view.emb (ix3 (0 : Fin 1) q k) = ix3 e ⟨t.val % 8 * 256 + q.val, hq⟩ k := by
  obtain ⟨-, -, -, -, e4⟩ := idx_facts t
  have hj : (BitVec.ofNat 32 (grid0.coords t 1).val).toNat = t.val % 8 := by
    rw [BitVec.toNat_ofNat, e4]; exact Nat.mod_eq_of_lt (by omega)
  funext d; apply Fin.ext
  match d with
  | ⟨0, _⟩ =>
    show ((cfg0 a).win 1).index t (0 : Fin 3) * 1 + 1 * 0 = e.val
    rw [win1_index]
    show (a.1.at 0 (Rect.unit (s := S1) ![0] S1.size inb_S1_S1_0) numel1_S1).toNat * 1 + 1 * 0 = e.val
    rw [he]; omega
  | ⟨1, _⟩ =>
    show ((cfg0 a).win 1).index t (1 : Fin 3) * 256 + 1 * q.val = t.val % 8 * 256 + q.val
    rw [win1_index]
    show (BitVec.ofNat 32 (grid0.coords t 1).val).toNat * 256 + 1 * q.val = t.val % 8 * 256 + q.val
    rw [hj]; omega
  | ⟨2, _⟩ =>
    show ((cfg0 a).win 1).index t (2 : Fin 3) * 2048 + 1 * k.val = k.val
    rw [win1_index]
    show (0#32 : BitVec 32).toNat * 2048 + 1 * k.val = k.val
    show 0 * 2048 + 1 * k.val = k.val
    omega

variable (m : (ℓ : Loc nD τ sig) → Buf (Elt F) ℓ)

/-- Window 0's block at point `t`, entry `(r, k)`: the activations at row `(t / 8) · 2048 + r`, feature `k`. -/
theorem iblk0_apply (hO : Ok m) (c : Dev nD) (t : Fin (cfgM m hO).N) (r k : Fin 2048) (hr : t.val / 8 * 2048 + r.val < 4096) :
    (iblk m hO c 0 t : Vec F S2048x2048 .f32) (ix2 r k)
      = m ((c.tc : Thread nD τ).loc main_arg0) (ix2 ⟨t.val / 8 * 2048 + r.val, hr⟩ k) :=
  (congrFun (V_main_arg0 m c) _).trans (congrArg _ (blk0_emb (adm m hO) t r k hr))

/-- Window 1's block at point `t`, entry `(0, q, k)`: the weights of the expert the table names, at output row
    `(t % 8) · 256 + q`, feature `k`. -/
theorem iblk1_apply (hO : Ok m) (c : Dev nD) (e : Fin 8) (he : (expertWord m).toNat = e.val) (t : Fin (cfgM m hO).N)
    (q : Fin 256) (k : Fin 2048) (hq : t.val % 8 * 256 + q.val < 2048) :
    (iblk m hO c 1 t : Vec F S1x256x2048 .f32) (ix3 (0 : Fin 1) q k)
      = m ((c.tc : Thread nD τ).loc main_arg2) (ix3 e ⟨t.val % 8 * 256 + q.val, hq⟩ k) :=
  (congrFun (V_main_arg2 m c) _).trans (congrArg _ (blk1_emb (adm m hO) t e
    ((congrArg BitVec.toNat (tbl_apply m _)).trans he) q k hq))

/-- Two points of one row block read the same activations block. -/
theorem iblk0_congr (hO : Ok m) (c : Dev nD) (t t' : Fin (cfgM m hO).N) (h : t.val / 8 = t'.val / 8) :
    (iblk m hO c 0 t : Vec F S2048x2048 .f32) = iblk m hO c 0 t' := by
  have hN : (cfgM m hO).N = 16 := N_0
  have ht := t.isLt
  have ht' := t'.isLt
  refine funext fun (y : S2048x2048.Idx) => ?_
  obtain ⟨r, k, rfl⟩ : ∃ (r k : Fin 2048), y = ix2 r k := ⟨y 0, y 1, eq_ix2 y⟩
  have hr : t.val / 8 * 2048 + r.val < 4096 := by have := r.isLt; omega
  have hr' : t'.val / 8 * 2048 + r.val < 4096 := by have := r.isLt; omega
  rw [iblk0_apply m hO c t r k hr, iblk0_apply m hO c t' r k hr']
  exact congrArg _ (congrArg (fun z => ix2 z k) (Fin.ext (by show t.val / 8 * 2048 + r.val = t'.val / 8 * 2048 + r.val; rw [h])))

/-- After a point that refreshes the scratch: the scratch is the cast of the point's activations block, and the output
    block the product of that cast with the point's weights block. -/
theorem outs_refresh (hO : Ok m) (c : Dev nD) (t : Fin (cfgM m hO).N) (h0 : t.val % 8 = 0) :
    outsAt0 m hO c t.val t.isLt
      = (k0_pay2 (iblk m hO c 1 t) (k0_pay1 (iblk m hO c 0 t)), k0_pay1 (iblk m hO c 0 t)) :=
  (outsAt0_A m hO c t h0).trans (congrArg₂ Prod.mk
    (out_refresh c (grid0.coords t) (ms0_0 m hO t) (hs0_0 m hO t) (ms0_1 m hO t) (hs0_1 m hO t) (ms0_2 m hO t) (hs0_2 m hO t) scM0_0 (Memref.isWhole_whole _) ((hcond0_0 t).mpr h0) (iblk m hO c 0 t) (iblk m hO c 1 t) (tbl m 0))
    (scratch_refresh c (grid0.coords t) (ms0_0 m hO t) (hs0_0 m hO t) (ms0_1 m hO t) (hs0_1 m hO t) (ms0_2 m hO t) (hs0_2 m hO t) scM0_0 (Memref.isWhole_whole _) ((hcond0_0 t).mpr h0) (iblk m hO c 0 t) (iblk m hO c 1 t) (tbl m 0)))

/-- After any other point: the scratch is what the point before left, and the output block the product of THAT with the
    point's weights block. -/
theorem outs_carry (hO : Ok m) (c : Dev nD) (t : Fin (cfgM m hO).N) (h0 : ¬t.val % 8 = 0) :
    outsAt0 m hO c t.val t.isLt
      = (k0_pay2 (iblk m hO c 1 t) (outsAt0 m hO c (t.val - 1) (Nat.lt_of_le_of_lt (Nat.sub_le _ _) t.isLt)).2,
         (outsAt0 m hO c (t.val - 1) (Nat.lt_of_le_of_lt (Nat.sub_le _ _) t.isLt)).2) :=
  (outsAt0_B m hO c t h0).trans (congrArg₂ Prod.mk
    (out_carry c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) (iblk m hO c 0 t) (iblk m hO c 1 t) (tbl m 0) (outsAt0 m hO c (t.val - 1) (Nat.lt_of_le_of_lt (Nat.sub_le _ _) t.isLt)).2)
    rfl)

/-- THE INVARIANT over the grid's points, by induction on the point: after point `n` the scratch holds the cast of
    point `n`'s own activations block (refreshed at the first point of each row block, carried through the other seven,
    which read the same block), and the output block is the product of that cast with point `n`'s weights block. -/
theorem outs_at (hO : Ok m) (c : Dev nD) : ∀ (n : ℕ) (h : n < (cfgM m hO).N),
    outsAt0 m hO c n h
      = (k0_pay2 (iblk m hO c 1 ⟨n, h⟩) (k0_pay1 (iblk m hO c 0 ⟨n, h⟩)), k0_pay1 (iblk m hO c 0 ⟨n, h⟩))
  | 0, h => outs_refresh m hO c ⟨0, h⟩ rfl
  | n + 1, h => by
    by_cases h0 : (n + 1) % 8 = 0
    · exact outs_refresh m hO c ⟨n + 1, h⟩ h0
    · have ih := outs_at hO c n (Nat.lt_of_succ_lt h)
      have hs : (outsAt0 m hO c n (Nat.lt_of_succ_lt h)).2 = k0_pay1 (iblk m hO c 0 ⟨n + 1, h⟩) := by
        rw [ih]
        show k0_pay1 (iblk m hO c 0 ⟨n, Nat.lt_of_succ_lt h⟩) = _
        rw [iblk0_congr m hO c ⟨n, Nat.lt_of_succ_lt h⟩ ⟨n + 1, h⟩ (by show n / 8 = (n + 1) / 8; omega)]
      refine (outs_carry m hO c ⟨n + 1, h⟩ h0).trans ?_
      show (k0_pay2 (iblk m hO c 1 ⟨n + 1, h⟩) (outsAt0 m hO c n _).2, (outsAt0 m hO c n _).2) = _
      rw [hs]

/-! ## At the ideal values: what the result array ends holding -/

section AtIdeal

variable (mI : (ℓ : Loc nD τ sig) → Buf (Elt Ideal) ℓ) (ρ : Dev nD → PrngReg)

/-- WHAT POINT `t` WRITES BACK is block `t` of the product: its entry `(r, q)` is the product's entry at row
    `(t / 8) · 2048 + r`, column `(t % 8) · 256 + q`. -/
theorem flushed_eq (hO : Ok mI) (c : Dev nD) (e : Fin 8) (he : (expertWord mI).toNat = e.val) (t : Fin (cfgM mI hO).N) :
    (dats mI hO 0 c).flushed 2 t = (((cfgM mI hO).win 2).blk t).view.read (Elt Ideal)
      (product (mI ((c.tc : Thread nD τ).loc main_arg0)) (mI ((c.tc : Thread nD τ).loc main_arg2)) e) := by
  have hN : (cfgM mI hO).N = 16 := N_0
  have ht := t.isLt
  show ((cfgM mI hO).win 2).cut (grid0.coords t) ((dats mI hO 0 c).after 2 t) = _
  rw [after0_2, outs_at mI hO c t.val t.isLt]
  refine funext fun (y : S2048x256.Idx) => ?_
  obtain ⟨r, q, rfl⟩ : ∃ (r : Fin 2048) (q : Fin 256), y = ix2 r q := ⟨y 0, y 1, eq_ix2 y⟩
  have hr : t.val / 8 * 2048 + r.val < 4096 := by have := r.isLt; omega
  have hq : t.val % 8 * 256 + q.val < 2048 := by have := q.isLt; omega
  show k0_pay2 (iblk mI hO c 1 t) (k0_pay1 (iblk mI hO c 0 t)) (ix2 r q)
    = product _ _ e ((((cfgM mI hO).win 2).blk t).view.emb (ix2 r q))
  rw [blk2_emb (adm mI hO) t r q hr hq, Cert.ExpertMatmul.product_apply]
  exact block_entry _ _ e _ _ (iblk mI hO c 0 t) (iblk mI hO c 1 t) r q
    (fun k => iblk0_apply mI hO c t r k hr) (fun k => iblk1_apply mI hO c e he t q k hq)

set_option backward.isDefEq.respectTransparency.types false in
/-- An index of the result whose row is in row block `t / 8` and whose column is in column block `t % 8` is in point
    `t`'s output block. -/
theorem mem_blk (a : (pcfg0 (F := Ideal)).Adm) (t : Fin (cfg0 a).N) (i : S4096x2048.Idx)
    (h0 : t.val / 8 * 2048 ≤ (i 0).val ∧ (i 0).val < t.val / 8 * 2048 + 2048)
    (h1 : t.val % 8 * 256 ≤ (i 1).val ∧ (i 1).val < t.val % 8 * 256 + 256) :
    i ∈ (((cfg0 a).win 2).blk t).view.set := by
  obtain ⟨-, -, e2, e3, -⟩ := idx_facts t
  show i ∈ ((View.whole main_v0).slice (((cfg0 a).win 2).rect t)).set
  rw [View.set_slice_whole]
  refine Rect.mem_set_unit.2 fun d => ?_
  match d with
  | ⟨0, _⟩ =>
    show ((cfg0 a).win 2).index t (0 : Fin 2) * 2048 ≤ (i 0).val ∧ (i 0).val < ((cfg0 a).win 2).index t (0 : Fin 2) * 2048 + 2048
    rw [win2_index, e2]; exact h0
  | ⟨1, _⟩ =>
    show ((cfg0 a).win 2).index t (1 : Fin 2) * 256 ≤ (i 1).val ∧ (i 1).val < ((cfg0 a).win 2).index t (1 : Fin 2) * 256 + 256
    rw [win2_index, e3]; exact h1

/-- The 2 x 8 output blocks tile the result: entry `(R, N)` is in the block of point `(R / 2048) · 8 + N / 256`. -/
theorem cover (hO : Ok mI) (i : S4096x2048.Idx) :
    ∃ t : Fin (cfgM mI hO).N, ((cfgM mI hO).win 2).flush t = true ∧ i ∈ (((cfgM mI hO).win 2).blk t).view.set := by
  have hN : (cfgM mI hO).N = 16 := N_0
  have h0 : (i 0).val < 4096 := (i 0).isLt
  have h1 : (i 1).val < 2048 := (i 1).isLt
  refine ⟨⟨(i 0).val / 2048 * 8 + (i 1).val / 256, by omega⟩, flush0_2 (adm mI hO) _, ?_⟩
  refine mem_blk (adm mI hO) _ i ?_ ?_
  · show ((i 0).val / 2048 * 8 + (i 1).val / 256) / 8 * 2048 ≤ (i 0).val
      ∧ (i 0).val < ((i 0).val / 2048 * 8 + (i 1).val / 256) / 8 * 2048 + 2048
    omega
  · show ((i 0).val / 2048 * 8 + (i 1).val / 256) % 8 * 256 ≤ (i 1).val
      ∧ (i 1).val < ((i 0).val / 2048 * 8 + (i 1).val / 256) % 8 * 256 + 256
    omega

/-- So the result array ends holding the product. -/
theorem final (hO : Ok mI) (c : Dev nD) (e : Fin 8) (he : (expertWord mI).toNat = e.val) :
    (dats mI hO 0 c).arrAt 2 (cfgM mI hO).N
      = product (mI ((c.tc : Thread nD τ).loc main_arg0)) (mI ((c.tc : Thread nD τ).loc main_arg2)) e :=
  (dats mI hO 0 c).arrAt_eq_of_cover 2 _ (fun t _ => flushed_eq mI hO c e he t) (cover mI hO)

/-- THE RUN, READ: every weakly fair execution of the idealized kernel's program terminates with the result array at the
    product of the activations with the transpose of the named expert's weights, and the arguments unchanged. -/
theorem run (hO : Ok mI) (e : Fin 8) (he : (expertWord mI).toNat = e.val) :
    θ_run defs (onTc (τ := τ) (main (F := Ideal))) ⟨mI, fun _ => 0, ρ⟩ fun r => ∀ c : Dev nD,
      r.2.mem ((c.tc : Thread nD τ).loc main_v0)
        = product (mI ((c.tc : Thread nD τ).loc main_arg0)) (mI ((c.tc : Thread nD τ).loc main_arg2)) e
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2) :=
  (θ_run defs _ _).mono (fun _ h c => ⟨((h c).1 2).trans (final mI hO c e he),
      ((h c).1 0).trans (((dats mI hO 0 c).arrAt_in 0 rfl _).trans ((A_eq mI hO c 0).trans (V_main_arg0 mI c))),
      ((h c).2 main_arg1 (by decide : main_arg1 ∈ Pipeline.restRefs sig spec0)).trans (V_main_arg1 mI c),
      ((h c).1 1).trans (((dats mI hO 0 c).arrAt_in 1 rfl _).trans ((A_eq mI hO c 1).trans (V_main_arg2 mI c)))⟩)
    (run_main mI ρ hO)

end AtIdeal

end Cert.KernelIdeal.KValue

end
-- ==== Proof.RefValue.lean ====
/-
  The reference, read entry by entry, is the product of the specification.

  The reference takes the expert's weight matrix out of the stacked weights by a dynamic slice whose first start word is
  the expert index (after jax's rule that a negative index counts from the end; the other two start words are the
  constant 0), drops the leading unit axis, transposes, and multiplies the activations by the result: entry `(r, n)` is
  the sum over the feature `k` of `x[r, k] · (w_e)ᵀ[k, n]`, and `(w_e)ᵀ[k, n] = w_e[n, k] = w[start, n, k]`.
  For an index word in range — not negative, below 8 — the negative-index rule leaves it alone and the slice's clamp is
  the identity, so `start` is the index itself and the entry is `Σ_k x[r, k] · w[e, n, k]`.
-/
import proofs.«172542_g39453569581158_cont_8to1_b_1137_5_alg».proof.Proof.RefRead
import proofs.«172542_g39453569581158_cont_8to1_b_1137_5_alg».proof.Proof.Spec
import Idealize.ShloMosaic.Lib.DynamicIndex

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.ExpertMatmul

/-- A word below 8 (read unsigned) is not negative read signed, and reads the same both ways. -/
theorem toInt_of_lt_eight (w : BitVec 32) (h : w.toNat < 8) : w.toInt = (w.toNat : Int) := by
  have e := BitVec.toInt_eq_toNat_cond w
  omega

/-- jax's rule for a negative index leaves an index that is not negative alone: the slice's first start word is the
    index word itself. -/
theorem start_word (x1 : IVec S_ 32) (h0 : 0 ≤ (x1 ValueIdx.ix0).toInt) (j : S_.Idx) :
    val_main_v2 (F := Ideal) x1 j = x1 ValueIdx.ix0 := by
  obtain rfl := eq_ix0 j
  unfold val_main_v2 val_main_v0 val_main_c
  exact select_slt_zero_of_nonneg x1 _ _ ValueIdx.ix0 h0

/-- The slice at start word `e` in range reads the stacked weights at expert `e`: its element `(0, n, k)` is `w[e, n, k]`. -/
theorem sliced_apply (x1 : IVec S_ 32) (x2 : FVec Ideal S8x2048x2048 .f32) (e : Fin 8) (he : (x1 ValueIdx.ix0).toNat = e.val)
    (n k : Fin 2048) (j : S1x2048x2048.Idx) (hj1 : (j 1).val = n.val) (hj2 : (j 2).val = k.val) :
    val_main_v9 (F := Ideal) x1 x2 j = x2 (ix3 e n k) := by
  have he8 : e.val < 8 := e.isLt
  have hint : (x1 ValueIdx.ix0).toInt = (e.val : Int) := by rw [toInt_of_lt_eight _ (by omega), he]
  have hoff : S8x2048x2048.Slices ![e.val, 0, 0] S1x2048x2048 := ⟨rfl, fun a => by
    match a with
    | ⟨0, _⟩ => show e.val + 1 ≤ 8; omega
    | ⟨1, _⟩ => show 0 + 2048 ≤ 2048; omega
    | ⟨2, _⟩ => show 0 + 2048 ≤ 2048; omega⟩
  unfold val_main_v9
  rw [Host.dynamicSlice_eq_extractStridedSlice S1x2048x2048 x2 _ ![e.val, 0, 0] sliceFits_S8x2048x2048_S1x2048x2048 hoff (fun a => by
    match a with
    | ⟨0, _⟩ =>
      show (val_main_v2 (F := Ideal) x1 (Shape.Idx.first h_S_)).toInt = (e.val : Int)
      rw [start_word x1 (by omega)]; exact hint
    | ⟨1, _⟩ => rfl
    | ⟨2, _⟩ => rfl)]
  have hj0 : (j 0).val = 0 := by have := (j 0).isLt; show (j 0).val = 0; have h1 : (j 0).val < 1 := (j 0).isLt; omega
  exact extractStridedSlice_apply _ x2 hoff j (ix3 e n k) (fun a => by
    match a with
    | ⟨0, _⟩ => show e.val = e.val + (j 0).val; omega
    | ⟨1, _⟩ => show n.val = 0 + (j 1).val; omega
    | ⟨2, _⟩ => show k.val = 0 + (j 2).val; omega)

/-- THE REFERENCE IS THE PRODUCT: for an index word in range, the reference's result is the specification's array. -/
theorem result_eq (x0 : FVec Ideal S4096x2048 .f32) (x1 : IVec S_ 32) (x2 : FVec Ideal S8x2048x2048 .f32) (e : Fin 8)
    (he : (x1 ValueIdx.ix0).toNat = e.val) :
    val_main_v12 (F := Ideal) x0 x1 x2 = product x0 x2 e := by
  funext i
  obtain ⟨r, n, rfl⟩ : ∃ (r : Fin 4096) (n : Fin 2048), i = ix2 r n := ⟨i 0, i 1, eq_ix2 i⟩
  rw [val_main_v12_apply, product_apply]
  unfold entry
  refine Finset.sum_congr rfl fun k _ => ?_
  have el : lidx_main_v12 (ix2 r n) k = ix2 r k := funext fun a => Fin.ext (by
    match a with
    | ⟨0, _⟩ => rfl
    | ⟨1, _⟩ => rfl)
  rw [el, val_main_v11_apply, val_main_v10_apply]
  refine congrArg (x0 (ix2 r k) * ·) ?_
  refine sliced_apply x1 x2 e he n k _ ?_ ?_
  · show ((n.val * 2048 + k.val) / 2048 % 2048) = n.val
    have hn := n.isLt; have hk := k.isLt; omega
  · show ((n.val * 2048 + k.val) % 2048) = k.val
    have hn := n.isLt; have hk := k.isLt; omega

end Cert.ReferenceIdeal.RefValue

end
-- ==== Proof.lean ====
/-
  The certificate's five claims.

  Both programs multiply the activations `x` (4096 x 2048) by the transpose of ONE expert's weight matrix, the expert
  named by a scalar integer among the 8 matrices stacked in `w` (each 2048 x 2048): `out[r, n] = Σ_k x[r, k] · w[e, n, k]`.

  The kernel never builds the expert's matrix. Its grid has 2 row blocks by 8 output-column blocks; at a point it fetches
  the activations' row block, and the block of 256 output rows of expert `e`'s weights — the expert read from a one-word
  table the index map consults —, keeps a scratch copy of the activations block cast to the matmul's input format
  (refreshed at the first column block of each row block, carried over the other seven) and stores the product of the
  scratch with the transpose of the weights block. On the extended reals the cast is the identity and the product
  accumulated into zero is, entry by entry, the sum over the features of the operands' products, so the point's output
  block is the corresponding block of `out`; the 16 blocks tile the result. The reference slices expert `e` out of the
  stack, transposes it and multiplies: the same sum at every entry. Neither side needs an entry to be finite: the two
  sums are the same sum of the same products, term by term.

  The precondition's added conjuncts, `0 ≤ expert_id < 8`, are what makes the kernel's fetch of the weights block lie
  inside the stack (the frames of the kernel and of its idealization are stated under that side condition), and what
  makes the reference's index rule — a negative index counts from the end, a start past the end is clamped — the
  identity, so that both programs read the same expert.

  `preserves`: the idealization rewrote nothing, so there is nothing to state.
-/
import proofs.«172542_g39453569581158_cont_8to1_b_1137_5_alg».proof.Defs
import proofs.«172542_g39453569581158_cont_8to1_b_1137_5_alg».proof.Proof.Gen.Kernel
import proofs.«172542_g39453569581158_cont_8to1_b_1137_5_alg».proof.Proof.Gen.Kernel.Frame
import proofs.«172542_g39453569581158_cont_8to1_b_1137_5_alg».proof.Proof.Gen.KernelIdeal
import proofs.«172542_g39453569581158_cont_8to1_b_1137_5_alg».proof.Proof.Gen.KernelIdeal.Frame
import proofs.«172542_g39453569581158_cont_8to1_b_1137_5_alg».proof.Proof.Gen.ReferenceIdeal
import proofs.«172542_g39453569581158_cont_8to1_b_1137_5_alg».proof.Proof.Gen.Pre_finite_inputs
import proofs.«172542_g39453569581158_cont_8to1_b_1137_5_alg».proof.Proof.OkBits
import proofs.«172542_g39453569581158_cont_8to1_b_1137_5_alg».proof.Proof.OkIdeal
import proofs.«172542_g39453569581158_cont_8to1_b_1137_5_alg».proof.Proof.KernelValue
import proofs.«172542_g39453569581158_cont_8to1_b_1137_5_alg».proof.Proof.RefValue
import Idealize.ShloMosaic.Adequacy
import Idealize.ShloMosaic.Init

noncomputable section

namespace Cert.Proof

open Idealize.ShloMosaic Idealize.SL.Sem

/-- The kernel as printed runs and leaves its arguments alone: the generated frame, its side condition on the table
    from the precondition's range for the expert index. -/
theorem frame_kernel : Cert.frame_Kernel := fun m ρ h =>
  Cert.Kernel.Gen.frame m ρ (Cert.Kernel.OkOfPre.ok_of_pre m h)

/-- The same for the idealized kernel. -/
theorem frame_kernelIdeal : Cert.frame_KernelIdeal := fun m ρ h =>
  Cert.KernelIdeal.Gen.frame m ρ (Cert.KernelIdeal.OkOfPre.ok_of_pre m h)

/-- The reference is a straight line of host operations: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values both programs end with the result array at the product of the activations with the transpose of
    the named expert's weights: the kernel's by its blocks (the value read off the frame run), the reference's by its
    operations read at an index, of arguments that agree. -/
theorem algebraic : Cert.algebraic_KernelIdeal_ReferenceIdeal := by
  intro m ρ m' ρ' hpre hagree
  have hlt := Cert.KernelIdeal.OkOfPre.expert_lt m hpre
  refine ⟨fun c => Cert.ExpertMatmul.product (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) ⟨_, hlt⟩,
    Cert.KernelIdeal.KValue.run m ρ (Cert.KernelIdeal.OkOfPre.ok_of_lt m hlt) ⟨_, hlt⟩ rfl, ?_⟩
  refine (θ_run Cert.ReferenceIdeal.defs _ _).mono (fun _ h c => ⟨(h c).1.trans ?_, (h c).2⟩)
    (Cert.ReferenceIdeal.ValueP.run (F := Ideal) m' ρ')
  obtain rfl : c = 0 := Subsingleton.elim _ _
  rw [(hagree 0).1, (hagree 0).2.1, (hagree 0).2.2]
  exact (Cert.ReferenceIdeal.ReadP.val_main_v12_eq _ _ _).trans
    (Cert.ReferenceIdeal.RefValue.result_eq _ _ _ ⟨_, hlt⟩ rfl)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
